-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096 : Shape := ⟨1, ![4096]⟩
abbrev S10000x256 : Shape := ⟨2, ![10000, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_

variable [Facts]

def fn {F : FTy → Type} [FloatOps F] (main_arg0 : FVec F S4096x256 .f32) (main_arg1 : IVec S4096 32) (main_arg2 : FVec F S10000x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S10000x256 .f32 := Host.absf main_arg2
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  main_v8
-- ==== Kernel.lean ====
abbrev S4096x256 : Shape := ⟨2, ![4096, 256]⟩
abbrev S4096 : Shape := ⟨1, ![4096]⟩
abbrev S10000x256 : Shape := ⟨2, ![10000, 256]⟩
abbrev S_ : Shape := ⟨0, ![]⟩
abbrev S10240x256 : Shape := ⟨2, ![10240, 256]⟩
abbrev S4096x1 : Shape := ⟨2, ![4096, 1]⟩
abbrev S1024x256 : Shape := ⟨2, ![1024, 256]⟩
abbrev S1024x1 : Shape := ⟨2, ![1024, 1]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 12
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S10000x256, .f32⟩
  | .hbm, ⟨3, _⟩ => ⟨S_, .i32⟩
  | .hbm, ⟨4, _⟩ => ⟨S_, .f32⟩
  | .hbm, ⟨5, _⟩ => ⟨S10240x256, .f32⟩
  | .hbm, ⟨6, _⟩ => ⟨S4096x1, .i32⟩
  | .hbm, ⟨7, _⟩ => ⟨S4096x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 10], ![false, false]⟩

def k0_cond2 (i : grid0.Coords) : BitVec 1 :=
  let arg1 : BitVec 32 := BitVec.ofNat 32 (i 1).val
  let c9_i32 : BitVec 32 := 9#32
  let v46 : BitVec 1 := Scalar.cmpi .eq arg1 c9_i32
  let v47 : BitVec 32 := Scalar.extui v46
  let c0_i32_18 : BitVec 32 := 0#32
  let v48 : BitVec 1 := Scalar.cmpi .ne v47 c0_i32_18
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  pads_S10000x256_S10240x256_02400_000 : S10000x256.Pads (![0, 0] : Fin 2 → Nat) ![240, 0] ![0, 0] S10240x256
  h_S_ : 0 < S_.numel
  shapeCasts_S4096_S4096x1 : S4096.ShapeCasts S4096x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  reduces_S1024x256_S1024 : S1024x256.Reduces [1] S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  iota_S1024x1024_d1_w32 : S1024x1024.Iotas .tc 32 [1]
  reduces_S1024x1024_S1024 : S1024x1024.Reduces [1] S1024
  reducesTo_S4096x1_S_d0_1 : S4096x1.ReducesTo [0, 1] S_
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S10240x256.size a
  hwx0_1 : ∀ i : grid0.Coords, EltTy.bits .f32 = 32 ∨ (Rect.block (s := S10240x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .i32 = 32 ∨ (Rect.block (s := S4096x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x256 : Shape := ⟨2, ![4096, 256]⟩
abbrev S4096 : Shape := ⟨1, ![4096]⟩
abbrev S10000x256 : Shape := ⟨2, ![10000, 256]⟩
abbrev S_ : Shape := ⟨0, ![]⟩
abbrev S4096x1 : Shape := ⟨2, ![4096, 1]⟩
abbrev S10000 : Shape := ⟨1, ![10000]⟩
abbrev S1x10000 : Shape := ⟨2, ![1, 10000]⟩
abbrev S4096x10000 : Shape := ⟨2, ![4096, 10000]⟩

abbrev nBuf : Space → Nat
  | .hbm => 39
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S10000x256, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S10000x256, .f32⟩
  | .hbm, ⟨8, _⟩ => ⟨S_, .f32⟩
  | .hbm, ⟨9, _⟩ => ⟨S10000, .f32⟩
  | .hbm, ⟨10, _⟩ => ⟨S1x10000, .f32⟩
  | .hbm, ⟨11, _⟩ => ⟨S4096x10000, .f32⟩
  | .hbm, ⟨12, _⟩ => ⟨S4096x10000, .f32⟩
  | .hbm, ⟨13, _⟩ => ⟨S4096x10000, .f32⟩
  | .hbm, ⟨14, _⟩ => ⟨S4096x10000, .f32⟩
  | .hbm, ⟨15, _⟩ => ⟨S_, .f32⟩
  | .hbm, ⟨16, _⟩ => ⟨S4096x10000, .f32⟩
  | .hbm, ⟨17, _⟩ => ⟨S4096x10000, .f32⟩
  | .hbm, ⟨18, _⟩ => ⟨S4096x10000, .f32⟩
  | .hbm, ⟨19, _⟩ => ⟨S4096x1, .i32⟩
  | .hbm, ⟨20, _⟩ => ⟨S10000, .i32⟩
  | .hbm, ⟨21, _⟩ => ⟨S1x10000, .i32⟩
  | .hbm, ⟨22, _⟩ => ⟨S4096x10000, .i32⟩
  | .hbm, ⟨23, _⟩ => ⟨S4096x10000, .i32⟩
  | .hbm, ⟨24, _⟩ => ⟨S4096x10000, .i1⟩
  | .hbm, ⟨25, _⟩ => ⟨S4096x10000, .f32⟩
  | .hbm, ⟨26, _⟩ => ⟨S4096x10000, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096x10000, .f32⟩
  | .hbm, ⟨31, _⟩ => ⟨S4096x10000, .f32⟩
  | .hbm, ⟨32, _⟩ => ⟨S_, .f32⟩
  | .hbm, ⟨33, _⟩ => ⟨S4096x10000, .f32⟩
  | .hbm, ⟨34, _⟩ => ⟨S4096x10000, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  reducesTo_S10000x256_S10000_d1 : S10000x256.ReducesTo [1] S10000
  bcast_S10000_S1x10000_1 : S10000.BroadcastsInDim S1x10000 (![1] : Fin 1 → Fin S1x10000.rank)
  bcast_S4096x1_S4096x10000_0_1 : S4096x1.BroadcastsInDim S4096x10000 (![0, 1] : Fin 2 → Fin S4096x10000.rank)
  bcast_S1x10000_S4096x10000_0_1 : S1x10000.BroadcastsInDim S4096x10000 (![0, 1] : Fin 2 → Fin S4096x10000.rank)
  bcast_S_S4096x10000 : S_.BroadcastsInDim S4096x10000 (![] : Fin 0 → Fin S4096x10000.rank)
  reducesTo_S4096x10000_S_d0_1 : S4096x10000.ReducesTo [0, 1] S_
  dot_S4096x256_S10000x256_S4096x10000_1_1_0_0_n_n_wf : DotDims.WF S4096x256 S10000x256 S4096x10000 [1] [1] [0] [0] [] []

variable [Facts₀]

def dot_S4096x256_S10000x256_S4096x10000_1_1_0_0_n_n : DotDims S4096x256 S10000x256 S4096x10000 where
  lhsContracting := [1]
  rhsContracting := [1]
  lhsNonContracting := [0]
  rhsNonContracting := [0]
  lhsBatch := []
  rhsBatch := []
  wf := dot_S4096x256_S10000x256_S4096x10000_1_1_0_0_n_n_wf

class Facts : Prop extends Facts₀ where

variable [Facts]
-- ==== Proof.Spec.lean ====
/-
  The center loss as one function of the argument arrays, over the extended reals.

  For a batch `X` of `n` feature rows (256 features each), one label word per row and `k` centers `C`, the entry
  of row `r` and class `j` is the squared distance `‖X r‖² + ‖C j‖² − 2 ⟨X r, C j⟩` when `j` is the row's label and
  `0` otherwise, clamped into `[1e-12, 1e12]`; a class number `j ≥ k` contributes `0`. The loss is the sum of all
  entries divided by the batch size. Both programs compute this number: one sums every entry of the
  `n × k` matrix at once, the other sums each row in tiles of 1024 classes (over a class axis padded with classes
  that contribute `0`) and then sums the rows.
-/
import Idealize.ShloMosaic.PureOps.Ideal
import Idealize.ShloMosaic.PureOps.Ideal.Laws
import Idealize.ShloMosaic.Lib.ValueIdx

noncomputable section

namespace Cert.CenterLoss

open Idealize.ShloMosaic Idealize.ShloMosaic.ValueIdx

/-- A matrix of extended reals with 256 columns. -/
abbrev Mat (n : ℕ) : Type := (⟨2, ![n, 256]⟩ : Shape).Idx → EReal

/-- The squared norm of row `r`. -/
def rowSq {n : ℕ} (X : Mat n) (r : Fin n) : EReal := ∑ d : Fin 256, X (ix2 r d) * X (ix2 r d)

/-- The inner product of row `r` of `X` with row `c` of `C`. -/
def rowDot {n k : ℕ} (X : Mat n) (C : Mat k) (r : Fin n) (c : Fin k) : EReal := ∑ d : Fin 256, X (ix2 r d) * C (ix2 c d)

/-- The squared distance of row `r` of `X` to row `c` of `C`, expanded: `‖x‖² + ‖c‖² − 2 ⟨x, c⟩`. -/
def dist {n k : ℕ} (X : Mat n) (C : Mat k) (r : Fin n) (c : Fin k) : EReal :=
  (rowSq X r + rowSq C c) - Ideal.ofBits .f32 0x40000000#32 * rowDot X C r c

/-- The clamp into `[1e-12, 1e12]` (both bounds as the f32 words the programs carry): the lower bound first, then the upper. -/
def clip (v : EReal) : EReal := min (Ideal.ofBits .f32 0x5368D4A5#32) (max (Ideal.ofBits .f32 0x2B8CBCCC#32) v)

/-- The entry of row `r` (whose label word is `ℓ`) and class number `j`: the clamped masked distance for a class
    `j < k`, and `0` for a class number past the last center. -/
def entry {n k : ℕ} (X : Mat n) (ℓ : BitVec 32) (C : Mat k) (r : Fin n) (j : ℕ) : EReal :=
  if h : j < k then clip (if ℓ = BitVec.ofNat 32 j then dist X C r ⟨j, h⟩ else 0) else 0

theorem entry_of_lt {n k : ℕ} (X : Mat n) (ℓ : BitVec 32) (C : Mat k) (r : Fin n) {j : ℕ} (h : j < k) :
    entry X ℓ C r j = clip (if ℓ = BitVec.ofNat 32 j then dist X C r ⟨j, h⟩ else 0) := dif_pos h

theorem entry_of_ge {n k : ℕ} (X : Mat n) (ℓ : BitVec 32) (C : Mat k) (r : Fin n) {j : ℕ} (h : ¬ j < k) :
    entry X ℓ C r j = 0 := dif_neg h

/-- The distance only reads row `r` of `X` and row `c` of `C`: two pairs of matrices that agree on those rows
    give the same distance. -/
theorem dist_congr {n k n' k' : ℕ} (X : Mat n) (C : Mat k) (X' : Mat n') (C' : Mat k') (r : Fin n) (c : Fin k)
    (r' : Fin n') (c' : Fin k') (hX : ∀ d : Fin 256, X (ix2 r d) = X' (ix2 r' d))
    (hC : ∀ d : Fin 256, C (ix2 c d) = C' (ix2 c' d)) : dist X C r c = dist X' C' r' c' := by
  unfold dist rowSq rowDot
  simp only [hX, hC]

/-- Summing a row's entries over class numbers beyond the last center adds nothing. -/
theorem sum_entry_range {n k : ℕ} (X : Mat n) (ℓ : BitVec 32) (C : Mat k) (r : Fin n) (extra : ℕ) :
    ∑ j ∈ Finset.range (k + extra), entry X ℓ C r j = ∑ j ∈ Finset.range k, entry X ℓ C r j := by
  rw [Finset.sum_range_add, Finset.sum_eq_zero (s := Finset.range extra) (fun x _ => entry_of_ge X ℓ C r (by omega)), add_zero]

/-- A row's total: the sum of its entries over the `k` classes. -/
def rowTotal {n k : ℕ} (X : Mat n) (L : (⟨1, ![n]⟩ : Shape).Idx → BitVec 32) (C : Mat k) (r : Fin n) : EReal :=
  ∑ j ∈ Finset.range k, entry X (L (ix1 r)) C r j

/-- The loss: the sum of all rows' totals, from the zero word, divided by the batch size `4096` (as the f32 word). -/
def loss {n k : ℕ} (X : Mat n) (L : (⟨1, ![n]⟩ : Shape).Idx → BitVec 32) (C : Mat k) : EReal :=
  Ideal.div (Ideal.ofBits .f32 0x00000000#32 + ∑ r : Fin n, rowTotal X L C r) (Ideal.ofBits .f32 0x45800000#32)

/-- A distance masked by multiplying with the comparison bit read as a number (`1` or `0`) is the distance where the
    bit is set and `0` elsewhere: on the extended reals `v · 1 = v` and `v · 0 = 0` for every `v`. -/
theorem mul_bit (v : EReal) (b : BitVec 1) : v * (((b.toNat : ℝ)) : EReal) = if b = 1#1 then v else 0 := by
  rcases BitVec.eq_zero_or_eq_one b with h | h <;> subst h <;> simp

end Cert.CenterLoss

end
-- ==== Proof.RefSide.lean ====
/-
  The reference program read one entry at a time.

  Entry `(b, c)` of the reference's clamped matrix is the specification's entry of row `b` and class `c`: the two
  row sums are the squared norms, the contraction is the inner product, and the comparison of the row's label word
  with the class number, converted to a number, is the mask. The reference's result is then the sum of all entries
  divided by the batch size, which is the specification's loss.
-/
import proofs.«146930_j52166672778208_1_alg».proof.Proof.Spec
import proofs.«146930_j52166672778208_1_alg».proof.Proof.Gen.ReferenceIdeal.Read

noncomputable section

namespace Cert.CenterLoss.Ref

open Idealize.ShloMosaic Idealize.ShloMosaic.ValueIdx Cert.ReferenceIdeal Cert.ReferenceIdeal.Read

/-- The sum of the squares of row `b` of the batch, from the zero word, is the row's squared norm. -/
theorem rowSqX_apply (X : (⟨S4096x256, .f32⟩ : BufTy).Contents (Elt Ideal)) (b : Fin 4096) :
    val_main_v1 (F := Ideal) X (ix1 b) = Cert.CenterLoss.rowSq X b := by
  rw [val_main_v1_apply, val_main_cst_apply, Ideal.ofBits_def, Ideal.ofBits_zero_f32, zero_add]
  unfold Cert.CenterLoss.rowSq
  refine Finset.sum_congr rfl fun k _ => ?_
  have e : idx_main_v1 (ix1 b) k = ix2 b k :=
    funext fun a => Fin.ext (by match a with | ⟨0, _⟩ => rfl | ⟨1, _⟩ => rfl)
  rw [val_main_v0_apply, Ideal.mulf_def, e]

/-- The sum of the squares of row `c` of the centers, from the zero word, is the row's squared norm. -/
theorem rowSqC_apply (C : (⟨S10000x256, .f32⟩ : BufTy).Contents (Elt Ideal)) (c : Fin 10000) :
    val_main_v4 (F := Ideal) C (ix1 c) = Cert.CenterLoss.rowSq C c := by
  rw [val_main_v4_apply, val_main_cst_0_apply, Ideal.ofBits_def, Ideal.ofBits_zero_f32, zero_add]
  unfold Cert.CenterLoss.rowSq
  refine Finset.sum_congr rfl fun k _ => ?_
  have e : idx_main_v4 (ix1 c) k = ix2 c k :=
    funext fun a => Fin.ext (by match a with | ⟨0, _⟩ => rfl | ⟨1, _⟩ => rfl)
  rw [val_main_v3_apply, Ideal.mulf_def, e]

/-- The batch's squared norms spread along the classes: entry `(b, c)` is row `b`'s squared norm. -/
theorem normX_apply (X : (⟨S4096x256, .f32⟩ : BufTy).Contents (Elt Ideal)) (b : Fin 4096) (c : Fin 10000) :
    val_main_v6 (F := Ideal) X (ix2 b c) = Cert.CenterLoss.rowSq X b := by
  have e : idx_main_v2 (idx_main_v6 (ix2 b c)) = ix1 b :=
    funext fun a => Fin.ext (by match a with | ⟨0, _⟩ => rfl)
  rw [val_main_v6_apply, val_main_v2_apply, e, rowSqX_apply]

/-- The centers' squared norms spread along the batch: entry `(b, c)` is center `c`'s squared norm. -/
theorem normC_apply (C : (⟨S10000x256, .f32⟩ : BufTy).Contents (Elt Ideal)) (b : Fin 4096) (c : Fin 10000) :
    val_main_v7 (F := Ideal) C (ix2 b c) = Cert.CenterLoss.rowSq C c := by
  have e : idx_main_v5 (idx_main_v7 (ix2 b c)) = ix1 c :=
    funext fun a => Fin.ext (by match a with | ⟨0, _⟩ => rfl)
  rw [val_main_v7_apply, val_main_v5_apply, e, rowSqC_apply]

/-- Entry `(b, c)` of the contraction is the inner product of row `b` of the batch with center `c`. -/
theorem dot_apply (X : (⟨S4096x256, .f32⟩ : BufTy).Contents (Elt Ideal)) (C : (⟨S10000x256, .f32⟩ : BufTy).Contents (Elt Ideal))
    (b : Fin 4096) (c : Fin 10000) :
    val_main_v9 (F := Ideal) X C (ix2 b c) = Cert.CenterLoss.rowDot X C b c := by
  rw [val_main_v9_apply]
  unfold Cert.CenterLoss.rowDot
  refine Finset.sum_congr rfl fun k _ => ?_
  have el : lidx_main_v9 (ix2 b c) k = ix2 b k :=
    funext fun a => Fin.ext (by match a with | ⟨0, _⟩ => rfl | ⟨1, _⟩ => rfl)
  have er : ridx_main_v9 (ix2 b c) k = ix2 c k :=
    funext fun a => Fin.ext (by match a with | ⟨0, _⟩ => rfl | ⟨1, _⟩ => rfl)
  rw [el, er]

/-- Entry `(b, c)` of the mask is the comparison bit of row `b`'s label word with the class number `c`, read as a
    number. -/
theorem mask_apply (L : (⟨S4096, .i32⟩ : BufTy).Contents (Elt Ideal)) (b : Fin 4096) (c : Fin 10000) :
    val_main_v19 (F := Ideal) L (ix2 b c)
      = (((IntOp.cmpi .eq (L (ix1 b)) (BitVec.ofNat 32 c.val)).toNat : ℝ) : EReal) := by
  have e : idx_main_v13 (idx_main_v16 (ix2 b c)) = ix1 b :=
    funext fun a => Fin.ext (by match a with | ⟨0, _⟩ => rfl)
  rw [val_main_v19_apply, val_main_v18_apply, val_main_v16_apply, val_main_v13_apply, e, val_main_v17_apply,
    val_main_v15_apply, val_main_v14_apply]
  rfl

/-- Entry `(b, c)` of the clamped masked distance matrix is the specification's entry of row `b` and class `c`. -/
theorem clipped_apply (X : (⟨S4096x256, .f32⟩ : BufTy).Contents (Elt Ideal)) (L : (⟨S4096, .i32⟩ : BufTy).Contents (Elt Ideal)) (C : (⟨S10000x256, .f32⟩ : BufTy).Contents (Elt Ideal)) (b : Fin 4096) (c : Fin 10000) :
    val_main_v21 (F := Ideal) X L C (ix2 b c) = Cert.CenterLoss.entry X (L (ix1 b)) C b c.val := by
  rw [Cert.CenterLoss.entry_of_lt _ _ _ _ c.isLt]
  rw [val_main_v21_apply, val_main_call0_v4_apply, val_main_call0_v3_apply, val_main_cst_3_apply,
    val_main_call0_v2_apply, val_main_call0_v1_apply, val_main_call0_v0_apply, val_main_cst_2_apply,
    val_main_v20_apply, val_main_v12_apply, val_main_v8_apply, val_main_v11_apply, val_main_v10_apply,
    val_main_cst_1_apply, normX_apply, normC_apply, dot_apply, mask_apply]
  simp only [Ideal.minimumf_def, Ideal.maximumf_def, Ideal.mulf_def, Ideal.subf_def, Ideal.addf_def, Ideal.ofBits_def]
  rw [Cert.CenterLoss.mul_bit]
  unfold Cert.CenterLoss.clip Cert.CenterLoss.dist
  by_cases h : L (ix1 b) = BitVec.ofNat 32 c.val
  · rw [if_pos h, if_pos (IntOp.cmpi_eq.mpr h)]
  · rw [if_neg h, if_neg (fun h' => h (IntOp.cmpi_eq.mp h'))]

/-- The reference's result — the sum of all entries from the zero word, divided by the batch size — is the loss. -/
theorem result_eq (X : (⟨S4096x256, .f32⟩ : BufTy).Contents (Elt Ideal)) (L : (⟨S4096, .i32⟩ : BufTy).Contents (Elt Ideal)) (C : (⟨S10000x256, .f32⟩ : BufTy).Contents (Elt Ideal)) :
    val_main_v23 (F := Ideal) X L C = fun _ => Cert.CenterLoss.loss X L C := by
  funext i
  rw [val_main_v23_apply, val_main_v22_apply, sum_idx2, val_main_cst_4_apply, val_main_cst_5_apply,
    Ideal.hostDivf_def, Ideal.ofBits_def, Ideal.ofBits_def]
  unfold Cert.CenterLoss.loss Cert.CenterLoss.rowTotal
  refine congrArg (fun s => Ideal.div (Ideal.ofBits .f32 0x00000000#32 + s) (Ideal.ofBits .f32 0x45800000#32)) ?_
  refine Finset.sum_congr rfl fun b _ => ?_
  exact (Finset.sum_congr rfl fun c _ => clipped_apply X L C b c).trans
    (Fin.sum_univ_eq_sum_range (fun j => Cert.CenterLoss.entry X (L (ix1 b)) C b j) 10000)

end Cert.CenterLoss.Ref

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.Blocks.lean ====
/-
  The blocks a grid point loads, as rows of the argument arrays.

  The grid has 4 × 10 points; point `t` works on row block `t / 10` and class tile `t % 10`. Its feature block is
  rows `1024 · (t / 10) + p` of the batch, its label block the labels of the same rows (the label vector recast as a
  column before the region), and its center block rows `1024 · (t % 10) + q` of the centers padded to 10240 rows —
  the centers' own rows for a class number below 10000.
-/
import proofs.«146930_j52166672778208_1_alg».proof.Proof.Spec
import proofs.«146930_j52166672778208_1_alg».proof.Proof.LibKeepdims
import proofs.«146930_j52166672778208_1_alg».proof.Proof.Gen.KernelIdeal.Frame
import Idealize.ShloMosaic.Lib.Pipeline.Value
import Idealize.ShloMosaic.Lib.StableHlo.Run
import Idealize.ShloMosaic.Lib.KernelVsHost
import Idealize.ShloMosaic.Lib.Tactic
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- Point `t`'s class tile is `t % 10`; its feature, label and output blocks are block `t / 10` along the rows, its
    center block is block `t % 10`; every block starts at column block `0`. Decided over the 40 points. -/
theorem grid_facts : ∀ t : Fin cfg0.N, (grid0.coords t 1).val = t.val % 10
    ∧ win0_0.index t (0 : Fin 2) = t.val / 10 ∧ win0_0.index t (1 : Fin 2) = 0
    ∧ win0_1.index t (0 : Fin 2) = t.val % 10 ∧ win0_1.index t (1 : Fin 2) = 0
    ∧ win0_2.index t (0 : Fin 2) = t.val / 10 ∧ win0_2.index t (1 : Fin 2) = 0
    ∧ win0_3.index t (0 : Fin 2) = t.val / 10 ∧ win0_3.index t (1 : Fin 2) = 0 :=
  (by decide +kernel : ∀ t : Fin grid0.N, _)

/-- The batch row that row `p` of point `n`'s row block is. -/
def rowOf (n : ℕ) (p : Fin 1024) : Fin 4096 := ⟨1024 * (n / 10 % 4) + p.val, by have := p.isLt; omega⟩

/-- The region finds, as its second operand, the centers padded with 240 rows. -/
theorem V_centers (c : Dev nD) : (V m c main_v0 : S10240x256.Idx → EReal)
    = pad S10240x256 ![0, 0] ![240, 0] ![0, 0] (m ((c : Thread nD τ).loc main_arg2))
        (sitofp .f32 (constantI S_ 32 0#32) : FVec Ideal S_ .f32) pads_S10000x256_S10240x256_02400_000 h_S_ := by
  dsimp only [V, V0]
  simp only [hostOps0, hostOps0_1, hostOps0_2, List.flatten_cons, List.flatten_nil, List.append_nil, List.cons_append,
    List.nil_append]
  after_results
  rfl

/-- The region finds, as its third operand, the label vector recast as a column. -/
theorem V_labels (c : Dev nD) : (V m c main_v1 : S4096x1.Idx → BitVec 32)
    = shapeCast S4096x1 (m ((c : Thread nD τ).loc main_arg1)) shapeCasts_S4096_S4096x1 := by
  dsimp only [V, V0]
  simp only [hostOps0, hostOps0_1, hostOps0_2, List.flatten_cons, List.flatten_nil, List.append_nil, List.cons_append,
    List.nil_append]
  after_results
  rfl

/-- A row of the padded centers below row 10000 is the centers' row. -/
theorem centers_read (c : Dev nD) (n : ℕ) (hn : n < 10000) (hn' : n < 10240) (d : Fin 256) :
    (V m c main_v0 : S10240x256.Idx → EReal) (ix2 (⟨n, hn'⟩ : Fin 10240) d)
      = m ((c : Thread nD τ).loc main_arg2) (ix2 (⟨n, hn⟩ : Fin 10000) d) := by
  refine (congrFun (V_centers m c) _).trans ?_
  exact pad_apply_of_inside ![0, 0] ![240, 0] ![0, 0] _ _ pads_S10000x256_S10240x256_02400_000 h_S_
    (ix2 (⟨n, hn'⟩ : Fin 10240) d) (ix2 (⟨n, hn⟩ : Fin 10000) d) (fun a => match a with
      | ⟨0, _⟩ => by show n = 0 + n * (0 + 1); omega
      | ⟨1, _⟩ => by show d.val = 0 + d.val * (0 + 1); omega)

/-- Point `t`'s feature block at `(p, d)` is the batch at row `rowOf t p`. -/
theorem x_block (c : Dev nD) (t : Fin cfg0.N) (p : Fin 1024) (d : Fin 256) :
    (iblk m c 0 t : Vec Ideal S1024x256 .f32) (ix2 p d) = m ((c : Thread nD τ).loc main_arg0) (ix2 (rowOf t.val p) d) := by
  obtain ⟨-, e0, e1, -⟩ := grid_facts t
  have hN : t.val < 40 := lt_of_lt_of_eq t.isLt (show cfg0.N = 40 from N_0)
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 1024 + 1 * p.val = 1024 * (t.val / 10 % 4) + p.val; rw [e0]; omega
  | ⟨1, _⟩ => show win0_0.index t (1 : Fin 2) * 256 + 1 * d.val = d.val; rw [e1]; omega

/-- Point `t`'s label block at row `p` is the label of batch row `rowOf t p`. -/
theorem label_block (c : Dev nD) (t : Fin cfg0.N) (p : Fin 1024) :
    (iblk m c 2 t : Vec Ideal S1024x1 .i32) (ix2 p (0 : Fin 1)) = m ((c : Thread nD τ).loc main_arg1) (ix1 (rowOf t.val p)) := by
  obtain ⟨-, -, -, -, -, e0, e1, -⟩ := grid_facts t
  have hN : t.val < 40 := lt_of_lt_of_eq t.isLt (show cfg0.N = 40 from N_0)
  unfold iblk
  rw [View.read_apply]
  show (V m c main_v1 : S4096x1.Idx → BitVec 32) _ = _
  have he : (((cfg0.win 2).blk t).view.emb (ix2 p (0 : Fin 1)) : S4096x1.Idx) = ix2 (rowOf t.val p) (0 : Fin 1) :=
    funext fun a => Fin.ext (by
      match a with
      | ⟨0, _⟩ => show win0_2.index t (0 : Fin 2) * 1024 + 1 * p.val = 1024 * (t.val / 10 % 4) + p.val; rw [e0]; omega
      | ⟨1, _⟩ => show win0_2.index t (1 : Fin 2) * 1 + 1 * 0 = 0; rw [e1])
  rw [he]
  refine (congrFun (V_labels m c) _).trans ?_
  exact Cert.LibKeepdims.shapeCast_a_a1_apply _ shapeCasts_S4096_S4096x1 (rowOf t.val p) 0

/-- Point `t`'s center block at `(q, d)`, for a class number `1024 · (t % 10) + q` below 10000, is that center's row. -/
theorem c_block (c : Dev nD) (t : Fin cfg0.N) (q : Fin 1024) (h : 1024 * (t.val % 10) + q.val < 10000) (d : Fin 256) :
    (iblk m c 1 t : Vec Ideal S1024x256 .f32) (ix2 q d)
      = m ((c : Thread nD τ).loc main_arg2) (ix2 (⟨1024 * (t.val % 10) + q.val, h⟩ : Fin 10000) d) := by
  obtain ⟨-, -, -, e0, e1, -⟩ := grid_facts t
  unfold iblk
  rw [View.read_apply]
  show (V m c main_v0 : S10240x256.Idx → EReal) _ = _
  have he : (((cfg0.win 1).blk t).view.emb (ix2 q d) : S10240x256.Idx)
      = ix2 (⟨1024 * (t.val % 10) + q.val, by omega⟩ : Fin 10240) d :=
    funext fun a => Fin.ext (by
      match a with
      | ⟨0, _⟩ => show win0_1.index t (0 : Fin 2) * 1024 + 1 * q.val = 1024 * (t.val % 10) + q.val; rw [e0]; omega
      | ⟨1, _⟩ => show win0_1.index t (1 : Fin 2) * 256 + 1 * d.val = d.val; rw [e1]; omega)
  rw [he]
  exact centers_read m c _ h _ d

end Cert.KernelIdeal.Blocks

end
-- ==== Proof.LibRowReduce.lean ====
/-
  A matrix reduced along its rows, read at a row, at the ideal values: the lane sum of `[a, b]` at row `r` is the sum
  over `c` of the entries `(r, c)`, and the lane maximum is the fold of `max`, from the value the accumulator's word
  denotes, over the same entries. The reduced index with the coordinate `c` put back on the dropped axis is `(r, c)`.
-/
import Idealize.ShloMosaic.Lib.ValueIdx
import Idealize.ShloMosaic.PureOps.Ideal.Laws

noncomputable section

namespace Cert.LibRowReduce

open Idealize.ShloMosaic Idealize.ShloMosaic.ValueIdx

/-- Row `r` of `[a, b]` with the column `c` put back is the entry `(r, c)`. -/
theorem lift_row {a b : ℕ} (h : (⟨2, ![a, b]⟩ : Shape).Reduces [1] ⟨1, ![a]⟩) (r : Fin a) (c : Fin b) :
    h.lift (ix1 r) c = ix2 r c := by
  funext d
  apply Fin.ext
  match d with
  | ⟨0, _⟩ => rfl
  | ⟨1, _⟩ => rfl

/-- The lane sum of a matrix at row `r` is the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src (lift_row h r c))

/-- The lane maximum of a matrix at row `r` is the fold of `max` over the row's entries, from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) :=
  (Ideal.multiReduction_maximumf_single src acc h hφ hacc (ix1 r)).trans
    (congrArg ((Finset.univ : Finset (Fin b)).fold max (Ideal.ofBits φ acc)) (funext fun c => congrArg src (lift_row h r c)))

end Cert.LibRowReduce

end
-- ==== Proof.Tile.lean ====
/-
  One tile of clamped masked distances, read at an entry, over the extended reals.

  At the grid point with class-tile number `jt` the body's tile (`k0_pay3`) has, at row `p` and column `q`, the
  class number `col = q + 1024 · jt` (as a 32-bit word), and the value: `0` if `col ≥ 10000` (a padded class); else
  the clamp of the distance of feature row `p` to center row `q` of the loaded blocks if the row's label is `col`,
  and the clamp of `0` if it is not. The distance is `‖x‖² + ‖c‖² − 2 ⟨x, c⟩` with the two squared norms lane sums of
  the squared blocks and the inner product a matrix product into a zero accumulator (the narrowing of its operands
  to 16 bits is the identity on the extended reals).
-/
import proofs.«146930_j52166672778208_1_alg».proof.Proof.Spec
import proofs.«146930_j52166672778208_1_alg».proof.Proof.LibKeepdims
import proofs.«146930_j52166672778208_1_alg».proof.Proof.LibRowReduce
import proofs.«146930_j52166672778208_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Tile

open Cert.KernelIdeal Cert.KernelIdeal.Gen Cert.CenterLoss

/-- The dimension record of the tile's matrix product: rows of the feature block against rows of the center block. -/
abbrev DD : DotDims S1024x256 S1024x256 S1024x1024 := dot_S1024x256_S1024x256_S1024x1024_1_1_0_0_n_n

theorem lhs_0 (i : S1024x1024.Idx) (k : DD.contr.Idx) : (DD.lhsIdx i k 0).val = (i 0).val := by
  unfold DotDims.lhsIdx
  rw [dif_neg (show ¬(0 : Fin S1024x256.rank) ∈ DD.lhsBatch by decide), dif_pos (show (0 : Fin S1024x256.rank) ∈ DD.lhsNonContracting by decide)]
  rfl
theorem lhs_1 (i : S1024x1024.Idx) (k : DD.contr.Idx) : (DD.lhsIdx i k 1).val = (k ⟨0, by decide⟩).val :=
  DD.lhsIdx_val_of_single rfl i k
theorem rhs_0 (i : S1024x1024.Idx) (k : DD.contr.Idx) : (DD.rhsIdx i k 0).val = (i 1).val := by
  unfold DotDims.rhsIdx
  rw [dif_neg (show ¬(0 : Fin S1024x256.rank) ∈ DD.rhsBatch by decide), dif_pos (show (0 : Fin S1024x256.rank) ∈ DD.rhsNonContracting by decide)]
  rfl
theorem rhs_1 (i : S1024x1024.Idx) (k : DD.contr.Idx) : (DD.rhsIdx i k 1).val = (k ⟨0, by decide⟩).val :=
  DD.rhsIdx_val_of_single rfl i k

/-- The matrix product of the two blocks into the zero accumulator, at `(p, q)`, is the inner product of feature row
    `p` and center row `q`. -/
theorem dot_term (x0 x1 : FVec Ideal S1024x256 .f32) (h1 h2 : FTy.bits .bf16 < FTy.bits .f32)
    (hs : S1024x256.ShapeCasts S1024x256) (p q : Fin 1024) :
    matmul DD none (truncf .bf16 x0 h1) (truncf .bf16 (shapeCast S1024x256 x1 hs) h2)
        (constant S1024x1024 .f32 0x00000000#32) (ix2 p q) = rowDot x0 x1 p q := by
  simp only [matmul]
  rw [Ideal.matmul_constant_zero_apply, ← Equiv.sum_comp (contrEquiv1 DD 256 rfl rfl).symm]
  unfold rowDot
  refine Finset.sum_congr rfl fun k _ => ?_
  have hk := contrEquiv1_symm_val DD 256 rfl rfl k
  have el : DD.lhsIdx (ix2 p q) ((contrEquiv1 DD 256 rfl rfl).symm k) = ix2 p k := funext fun a => Fin.ext (by
    match a with
    | ⟨0, _⟩ => exact lhs_0 _ _
    | ⟨1, _⟩ => exact (lhs_1 _ _).trans hk)
  have er : DD.rhsIdx (ix2 p q) ((contrEquiv1 DD 256 rfl rfl).symm k) = ix2 q k := funext fun a => Fin.ext (by
    match a with
    | ⟨0, _⟩ => exact rhs_0 _ _
    | ⟨1, _⟩ => exact (rhs_1 _ _).trans hk)
  rw [el, er, shapeCast_self]
  rfl

/-- The lane sum of the squared feature block, kept as a column and broadcast along the tile's rows, at `(p, q)` is
    the squared norm of feature row `p`. -/
theorem rowsq_term (x0 : FVec Ideal S1024x256 .f32) (hr : S1024x256.Reduces [1] S1024) (hc : S1024.ShapeCasts S1024x1)
    (hb : S1024x1.Broadcasts S1024x1024) (p q : Fin 1024) :
    broadcastTo S1024x1024 (shapeCast S1024x1 (multiReduction .add [1] S1024 (mulf x0 x0) 0x00000000#32 hr (.inl rfl) rfl) hc) hb (ix2 p q)
      = rowSq x0 p :=
  (Cert.LibKeepdims.broadcastTo_a1_ab_apply _ hb p q).trans
    ((Cert.LibKeepdims.shapeCast_a_a1_apply _ hc p 0).trans
      (Cert.LibRowReduce.rowSum_apply (mulf x0 x0) 0x00000000#32 hr (.inl rfl) rfl p))

/-- The lane sum of the squared center block, laid out as a row and broadcast down the tile's columns, at `(p, q)` is
    the squared norm of center row `q`. -/
theorem colsq_term (x1 : FVec Ideal S1024x256 .f32) (hs : S1024x256.ShapeCasts S1024x256) (hr : S1024x256.Reduces [1] S1024)
    (hc : S1024.ShapeCasts S1x1024) (hb : S1x1024.Broadcasts S1024x1024) (p q : Fin 1024) :
    broadcastTo S1024x1024 (shapeCast S1x1024 (multiReduction .add [1] S1024
        (mulf (shapeCast S1024x256 x1 hs) (shapeCast S1024x256 x1 hs)) 0x00000000#32 hr (.inl rfl) rfl) hc) hb (ix2 p q)
      = rowSq x1 q := by
  rw [shapeCast_self]
  exact (broadcastTo_1b_ab_apply _ hb p q).trans
    ((shapeCast_a_1a_apply _ hc 0 q).trans
      (Cert.LibRowReduce.rowSum_apply (mulf x1 x1) 0x00000000#32 hr (.inl rfl) rfl q))

/-- The labels' column broadcast along the tile's rows, at `(p, q)`, is row `p`'s label. -/
theorem label_term (x2 : IVec S1024x1 32) (hs : S1024x1.ShapeCasts S1024x1) (hb : S1024x1.Broadcasts S1024x1024) (p q : Fin 1024) :
    broadcastTo S1024x1024 (shapeCast S1024x1 x2 hs) hb (ix2 p q) = x2 (ix2 p (0 : Fin 1)) := by
  rw [shapeCast_self]
  exact Cert.LibKeepdims.broadcastTo_a1_ab_apply _ hb p q

/-- The column counter of the tile at `(p, q)` is `q`. -/
theorem iota_term (h : S1024x1024.Iotas .tc 32 [1]) (p q : Fin 1024) :
    iota .tc S1024x1024 32 [1] h (ix2 p q) = BitVec.ofNat 32 q.val :=
  iota_single_apply .tc S1024x1024 32 1 h (ix2 p q)

/-- The tile at `(p, q)`: the padded-class test on the class number, around the clamp of the label test's choice
    between the distance and `0`. -/
theorem tile_apply (i : grid0.Coords) (x0 x1 : Vec Ideal S1024x256 .f32) (x2 : Vec Ideal S1024x1 .i32) (p q : Fin 1024) :
    k0_pay3 (F := Ideal) i x0 x1 x2 (ix2 p q)
      = Scalar.select (IntOp.cmpi .slt (IntOp.addi (BitVec.ofNat 32 q.val) (Scalar.muli (BitVec.ofNat 32 (i 1).val) 1024#32)) 10000#32)
          (clip (Scalar.select (IntOp.cmpi .eq (x2 (ix2 p (0 : Fin 1)))
              (IntOp.addi (BitVec.ofNat 32 q.val) (Scalar.muli (BitVec.ofNat 32 (i 1).val) 1024#32)))
            (dist x0 x1 p q) (Ideal.ofBits .f32 0x00000000#32)))
          (Ideal.ofBits .f32 0x00000000#32) := by
  unfold k0_pay3
  show Scalar.select (IntOp.cmpi .slt (IntOp.addi (iota .tc S1024x1024 32 [1] iota_S1024x1024_d1_w32 (ix2 p q))
        (Scalar.muli (BitVec.ofNat 32 (i 1).val) 1024#32)) 10000#32)
      (min (Ideal.ofBits .f32 0x5368D4A5#32) (max (Ideal.ofBits .f32 0x2B8CBCCC#32)
        (Scalar.select (IntOp.cmpi .eq
            (broadcastTo S1024x1024 (shapeCast S1024x1 x2 shapeCasts_S1024x1_S1024x1) broadcasts_S1024x1_S1024x1024 (ix2 p q))
            (IntOp.addi (iota .tc S1024x1024 32 [1] iota_S1024x1024_d1_w32 (ix2 p q)) (Scalar.muli (BitVec.ofNat 32 (i 1).val) 1024#32)))
          ((broadcastTo S1024x1024 (shapeCast S1024x1 (multiReduction .add [1] S1024 (mulf x0 x0) 0x00000000#32
                reduces_S1024x256_S1024 (.inl rfl) rfl) shapeCasts_S1024_S1024x1) broadcasts_S1024x1_S1024x1024 (ix2 p q)
              + broadcastTo S1024x1024 (shapeCast S1x1024 (multiReduction .add [1] S1024
                  (mulf (shapeCast S1024x256 x1 shapeCasts_S1024x256_S1024x256) (shapeCast S1024x256 x1 shapeCasts_S1024x256_S1024x256))
                  0x00000000#32 reduces_S1024x256_S1024 (.inl rfl) rfl) shapeCasts_S1024_S1x1024) broadcasts_S1x1024_S1024x1024 (ix2 p q))
            - Ideal.ofBits .f32 0x40000000#32
              * matmul DD none (truncf .bf16 x0 bitsLt_bf16_f32)
                  (truncf .bf16 (shapeCast S1024x256 x1 shapeCasts_S1024x256_S1024x256) bitsLt_bf16_f32)
                  (constant S1024x1024 .f32 0x00000000#32) (ix2 p q))
          (Ideal.ofBits .f32 0x00000000#32))))
      (Ideal.ofBits .f32 0x00000000#32) = _
  rw [iota_term, label_term, rowsq_term, colsq_term, dot_term]
  rfl

end Cert.KernelIdeal.Tile

end
-- ==== Proof.Entry.lean ====
/-
  A tile's entries and a tile's row sums in the specification's terms, over the extended reals.

  The class number of column `q` of the tile with number `jt` is `1024 · jt + q`, also as a 32-bit word (no wrap: it
  is below 10240); the padded-class test on that word is the comparison with 10000 of the number. So when the loaded
  blocks are rows of the argument arrays — feature rows of `X`, the rows' labels, and, for a class below 10000, center
  rows of `C` — the tile's entry at `(p, q)` is the specification's entry of that row and class number. Adding a
  tile's row sums to a column adds, row by row, the sum over the tile's 1024 columns.
-/
import proofs.«146930_j52166672778208_1_alg».proof.Proof.Tile
import Idealize.ShloMosaic.Lib.Affine

noncomputable section

open Idealize.ShloMosaic Idealize.ShloMosaic.ValueIdx

namespace Cert.KernelIdeal.Tile

open Cert.KernelIdeal Cert.KernelIdeal.Gen Cert.CenterLoss

/-- The class number of column `q` in tile `jt`, computed on 32-bit words, is the word of `1024 · jt + q`. -/
theorem col_word (q jt : ℕ) :
    IntOp.addi (BitVec.ofNat 32 q) (Scalar.muli (BitVec.ofNat 32 jt) 1024#32) = BitVec.ofNat 32 (1024 * jt + q) := by
  unfold IntOp.addi Scalar.muli IntOp.muli
  rw [Nat.add_comm, BitVec.ofNat_add, Nat.mul_comm, BitVec.ofNat_mul]

/-- A number below 10240 is the signed value of its 32-bit word. -/
theorem toInt_word (n : ℕ) (hn : n < 10240) : (BitVec.ofNat 32 n).toInt = (n : ℤ) := by
  have h1 : (BitVec.ofNat 32 n).toNat = n := by
    rw [BitVec.toNat_ofNat]; exact Nat.mod_eq_of_lt (by omega)
  rw [BitVec.toInt_eq_toNat_of_lt (by rw [h1]; omega), h1]

/-- The signed comparison of such a word with 10000 is the comparison of the numbers. -/
theorem slt_word (n : ℕ) (hn : n < 10240) :
    IntOp.cmpi .slt (BitVec.ofNat 32 n) 10000#32 = if n < 10000 then 1#1 else 0#1 := by
  have hi := toInt_word n hn
  have h10 : (10000#32 : BitVec 32).toInt = 10000 := by decide
  by_cases h : n < 10000
  · rw [if_pos h]; exact IntOp.cmpi_slt.mpr (by rw [hi, h10]; omega)
  · rw [if_neg h]
    exact eq_zero_of_ne_one (fun h1 => h (by have := IntOp.cmpi_slt.mp h1; rw [hi, h10] at this; omega))

/-- The tile's entry at `(p, q)` is the specification's entry of the row and the class number, when the loaded
    blocks are the rows of the arrays: `x0`'s row `p` is `X`'s row `b`, the label read is `ℓ`, and for a class number
    below 10000 `x1`'s row `q` is that center's row. -/
theorem tile_entry (i : grid0.Coords) (x0 x1 : Vec Ideal S1024x256 .f32) (x2 : Vec Ideal S1024x1 .i32) (p q : Fin 1024)
    (X : Mat 4096) (ℓ : BitVec 32) (C : Mat 10000) (b : Fin 4096) (jt : ℕ) (hjt : (i 1).val = jt) (hj : jt < 10)
    (hX : ∀ d : Fin 256, x0 (ix2 p d) = X (ix2 b d)) (hℓ : x2 (ix2 p (0 : Fin 1)) = ℓ)
    (hC : ∀ (h : 1024 * jt + q.val < 10000) (d : Fin 256), x1 (ix2 q d) = C (ix2 ⟨1024 * jt + q.val, h⟩ d)) :
    k0_pay3 (F := Ideal) i x0 x1 x2 (ix2 p q) = entry X ℓ C b (1024 * jt + q.val) := by
  have hq := q.isLt
  rw [tile_apply, hjt, col_word, slt_word _ (by omega), hℓ]
  by_cases h : 1024 * jt + q.val < 10000
  · rw [if_pos h, select_one, entry_of_lt _ _ _ _ h]
    refine congrArg clip ?_
    by_cases he : ℓ = BitVec.ofNat 32 (1024 * jt + q.val)
    · rw [if_pos he, IntOp.cmpi_eq.mpr he, select_one]
      exact dist_congr x0 x1 X C p q b ⟨_, h⟩ hX (hC h)
    · rw [if_neg he, eq_zero_of_ne_one (fun h' => he (IntOp.cmpi_eq.mp h')), select_zero, Ideal.ofBits_zero_f32]
  · rw [if_neg h, select_zero, entry_of_ge _ _ _ _ h, Ideal.ofBits_zero_f32]

/-- Adding a tile's row sums to a column: at row `p` the column's entry plus the sum of the tile's row `p`. -/
theorem colsum_apply (tile : FVec Ideal S1024x1024 .f32) (col : Vec Ideal S1024x1 .f32) (p : Fin 1024) (u : Fin 1) :
    k0_pay1 (F := Ideal) tile col (ix2 p u) = col (ix2 p u) + ∑ q : Fin 1024, tile (ix2 p q) := by
  unfold k0_pay1
  show shapeCast S1024x1 (addf col (shapeCast S1024x1 (multiReduction .add [1] S1024 tile 0x00000000#32
      reduces_S1024x1024_S1024 (.inl rfl) rfl) shapeCasts_S1024_S1024x1)) shapeCasts_S1024x1_S1024x1 (ix2 p u) = _
  rw [shapeCast_self]
  refine congrArg (col (ix2 p u) + ·) ?_
  exact (Cert.LibKeepdims.shapeCast_a_a1_apply _ shapeCasts_S1024_S1024x1 p u).trans
    (Cert.LibRowReduce.rowSum_apply tile 0x00000000#32 reduces_S1024x1024_S1024 (.inl rfl) rfl p)

/-- The reset column is zero everywhere. -/
theorem zerocol_apply (p : Fin 1024) (u : Fin 1) : k0_pay2 (F := Ideal) (ix2 p u) = 0 := by
  unfold k0_pay2
  show shapeCast S1024x1 (broadcast S1024x1 (Ideal.ofBits .f32 0x00000000#32)) shapeCasts_S1024x1_S1024x1 (ix2 p u) = 0
  rw [shapeCast_self]
  exact Ideal.ofBits_zero_f32

end Cert.KernelIdeal.Tile

end
-- ==== Proof.Pieces.lean ====
/-
  What one grid point's body leaves behind, as values, for any float instance.

  The body reads a block of 1024 feature rows, a block of 1024 centers and the rows' labels, forms the 1024 × 1024
  tile of clamped masked distances (`k0_pay3`), and adds each row's sum over the tile to a running column of 1024
  row sums kept in a scratch buffer (`k0_pay1`). At a point that starts a new block of rows the column is first
  reset to zero (`k0_pay2`); at a point that ends one the column is also copied to the output block. So after a point
  the scratch column holds `k0_pay1 tile previous`, with `previous` the zero column at a starting point and the
  column the point before left otherwise, and at an ending point the output block holds the same column.
-/
import proofs.«146930_j52166672778208_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offset of a store that covers its whole buffer. -/
theorem hz : (![0, 0] : Fin 2 → Nat) = fun _ => 0 := funext fun a => by fin_cases a <;> rfl

/-- A point in the middle of a block of rows: the scratch column ends at the tile's row sums added to the column
    the point before left. -/
theorem scratch_mid (c : Dev nD) (i : grid0.Coords) (a2 : Memref sig .tc .vmem S1024x256 .f32) (h2 : a2.IsWhole)
    (a3 : Memref sig .tc .vmem S1024x256 .f32) (h3 : a3.IsWhole) (a4 : Memref sig .tc .vmem S1024x1 .i32) (h4 : a4.IsWhole)
    (a5 : Memref sig .tc .vmem S1024x1 .f32) (h5 : a5.IsWhole) (a6 : Memref sig .tc .vmem S1024x1 .f32) (h6 : a6.IsWhole)
    (hc0 : ¬cond0_0 i) (hc1 : ¬cond0_1 i)
    (x0 : Vec F S1024x256 .f32) (x1 : Vec F S1024x256 .f32) (x2 : Vec F S1024x1 .i32) (xs0 : Vec F S1024x1 .f32) :
    sout0_B_0 c i a2 h2 a3 h3 a4 h4 a5 h5 a6 h6 hc0 hc1 x0 x1 x2 xs0 = k0_pay1 (k0_pay3 i x0 x1 x2) xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz]
  simp only [View.readAt_eq_ld, h2.read_unread, h3.read_unread, h4.read_unread, h6.read_unread,
    View.ld_unit_zero (S := S1024x1) hz, View.ld_unit_zero (S := S1024x256) hz]

/-- The first point of a block of rows: the column is reset, then the tile's row sums are added to the zero column. -/
theorem scratch_first (c : Dev nD) (i : grid0.Coords) (a2 : Memref sig .tc .vmem S1024x256 .f32) (h2 : a2.IsWhole)
    (a3 : Memref sig .tc .vmem S1024x256 .f32) (h3 : a3.IsWhole) (a4 : Memref sig .tc .vmem S1024x1 .i32) (h4 : a4.IsWhole)
    (a5 : Memref sig .tc .vmem S1024x1 .f32) (h5 : a5.IsWhole) (a6 : Memref sig .tc .vmem S1024x1 .f32) (h6 : a6.IsWhole)
    (hc0 : cond0_0 i) (hc1 : ¬cond0_1 i)
    (x0 : Vec F S1024x256 .f32) (x1 : Vec F S1024x256 .f32) (x2 : Vec F S1024x1 .i32) :
    sout0_A_0 c i a2 h2 a3 h3 a4 h4 a5 h5 a6 h6 hc0 hc1 x0 x1 x2 = k0_pay1 (k0_pay3 i x0 x1 x2) (k0_pay2 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1024x1) hz, View.readCov_unit_zero (S := S1024x1) _ hz]
  simp only [View.readAt_eq_ld, h2.read_unread, h3.read_unread, h4.read_unread, h6.read_unread,
    View.ld_unit_zero (S := S1024x1) hz, View.ld_unit_zero (S := S1024x256) hz]

/-- The last point of a block of rows: the scratch column ends as at a middle point. -/
theorem scratch_last (c : Dev nD) (i : grid0.Coords) (a2 : Memref sig .tc .vmem S1024x256 .f32) (h2 : a2.IsWhole)
    (a3 : Memref sig .tc .vmem S1024x256 .f32) (h3 : a3.IsWhole) (a4 : Memref sig .tc .vmem S1024x1 .i32) (h4 : a4.IsWhole)
    (a5 : Memref sig .tc .vmem S1024x1 .f32) (h5 : a5.IsWhole) (a6 : Memref sig .tc .vmem S1024x1 .f32) (h6 : a6.IsWhole)
    (hc0 : ¬cond0_0 i) (hc1 : cond0_1 i)
    (x0 : Vec F S1024x256 .f32) (x1 : Vec F S1024x256 .f32) (x2 : Vec F S1024x1 .i32) (xs0 : Vec F S1024x1 .f32) :
    sout0_C_0 c i a2 h2 a3 h3 a4 h4 a5 h5 a6 h6 hc0 hc1 x0 x1 x2 xs0 = k0_pay1 (k0_pay3 i x0 x1 x2) xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz]
  simp only [View.readAt_eq_ld, h2.read_unread, h3.read_unread, h4.read_unread, h6.read_unread,
    View.ld_unit_zero (S := S1024x1) hz, View.ld_unit_zero (S := S1024x256) hz]

/-- At the last point of a block of rows the output block holds that same column (it is read back from the scratch
    and stored whole). -/
theorem out_last (c : Dev nD) (i : grid0.Coords) (a2 : Memref sig .tc .vmem S1024x256 .f32) (h2 : a2.IsWhole)
    (a3 : Memref sig .tc .vmem S1024x256 .f32) (h3 : a3.IsWhole) (a4 : Memref sig .tc .vmem S1024x1 .i32) (h4 : a4.IsWhole)
    (a5 : Memref sig .tc .vmem S1024x1 .f32) (h5 : a5.IsWhole) (a6 : Memref sig .tc .vmem S1024x1 .f32) (h6 : a6.IsWhole)
    (hc0 : ¬cond0_0 i) (hc1 : cond0_1 i)
    (x0 : Vec F S1024x256 .f32) (x1 : Vec F S1024x256 .f32) (x2 : Vec F S1024x1 .i32) (xs0 : Vec F S1024x1 .f32) :
    out0_C_3 c i a2 h2 a3 h3 a4 h4 a5 h5 a6 h6 hc0 hc1 x0 x1 x2 xs0 = k0_pay1 (k0_pay3 i x0 x1 x2) xs0 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz, View.readCov_unit_zero (S := S1024x1) _ hz]
  simp only [View.readAt_eq_ld, h2.read_unread, h3.read_unread, h4.read_unread, h6.read_unread,
    View.ld_unit_zero (S := S1024x1) hz, View.ld_unit_zero (S := S1024x256) hz]

end Cert.KernelIdeal.Pieces

end
-- ==== Proof.Accumulate.lean ====
/-
  The running column of row sums, point by point.

  Along one block of rows the ten class tiles are visited in order. After the point of tile `jt` the scratch column
  holds, at row `p`, the sum of the row's entries over the class numbers below `1024 · (jt + 1)`: the first point starts
  from the zero column, each later point adds its tile's 1024 entries to what the point before left, and consecutive
  ranges of class numbers concatenate. After the tenth tile that is the sum over all 10240 class numbers, of which those
  from 10000 on contribute nothing: the row's total, which the last point also leaves in the output block.
-/
import proofs.«146930_j52166672778208_1_alg».proof.Proof.Blocks
import proofs.«146930_j52166672778208_1_alg».proof.Proof.Entry
import proofs.«146930_j52166672778208_1_alg».proof.Proof.Pieces

noncomputable section

open Idealize.ShloMosaic Idealize.ShloMosaic.TcCoe Idealize.SL.Sem Idealize.ShloMosaic.ValueIdx

namespace Cert.KernelIdeal.Value

open Cert.KernelIdeal Cert.KernelIdeal.Gen Cert.CenterLoss Cert.KernelIdeal.Blocks Cert.KernelIdeal.Tile

variable (m : (ℓ : Loc nD τ sig) → Buf (Elt Ideal) ℓ)

/-- The batch, the labels and the centers on core `c`, as launched. -/
abbrev XX (c : Dev nD) : Mat 4096 := m ((c : Thread nD τ).loc main_arg0)
abbrev LL (c : Dev nD) : (⟨1, ![4096]⟩ : Shape).Idx → BitVec 32 := m ((c : Thread nD τ).loc main_arg1)
abbrev CC (c : Dev nD) : Mat 10000 := m ((c : Thread nD τ).loc main_arg2)

/-- The entry of class number `j` in the batch row that row `p` of point `n`'s block is. -/
abbrev ent (c : Dev nD) (n : ℕ) (p : Fin 1024) (j : ℕ) : EReal :=
  entry (XX m c) (LL m c (ix1 (rowOf n p))) (CC m c) (rowOf n p) j

/-- Row `p` of point `t`'s tile sums to the row's entries over the tile's 1024 class numbers. -/
theorem tile_sum (c : Dev nD) (t : Fin cfg0.N) (p : Fin 1024) :
    ∑ q : Fin 1024, k0_pay3 (F := Ideal) (grid0.coords t) (iblk m c 0 t) (iblk m c 1 t) (iblk m c 2 t) (ix2 p q)
      = ∑ q ∈ Finset.range 1024, ent m c t.val p (1024 * (t.val % 10) + q) := by
  have hN : t.val < 40 := lt_of_lt_of_eq t.isLt (show cfg0.N = 40 from N_0)
  rw [← Fin.sum_univ_eq_sum_range (fun q => ent m c t.val p (1024 * (t.val % 10) + q)) 1024]
  refine Finset.sum_congr rfl fun q _ => ?_
  exact tile_entry (grid0.coords t) (iblk m c 0 t) (iblk m c 1 t) (iblk m c 2 t) p q (XX m c)
    (LL m c (ix1 (rowOf t.val p))) (CC m c) (rowOf t.val p) (t.val % 10) (grid_facts t).1 (by omega)
    (fun d => x_block m c t p d) (label_block m c t p) (fun h d => c_block m c t q h d)

/-- What point `t` makes of a column: at row `p` the column's entry plus the row's entries over the tile's class
    numbers. -/
theorem col_step (c : Dev nD) (t : Fin cfg0.N) (col : Vec Ideal S1024x1 .f32) (p : Fin 1024) (u : Fin 1) :
    k0_pay1 (F := Ideal) (k0_pay3 (grid0.coords t) (iblk m c 0 t) (iblk m c 1 t) (iblk m c 2 t)) col (ix2 p u)
      = col (ix2 p u) + ∑ q ∈ Finset.range 1024, ent m c t.val p (1024 * (t.val % 10) + q) :=
  (colsum_apply _ col p u).trans (congrArg (col (ix2 p u) + ·) (tile_sum m c t p))

/-- At the first point of a block of rows the scratch column ends at the first tile's sums, from zero. -/
theorem scratch_at_first (c : Dev nD) (t : Fin cfg0.N) (h0 : t.val % 10 = 0) (h1 : ¬t.val % 10 = 9) (p : Fin 1024) (u : Fin 1) :
    (outsAt0 m c t.val t.isLt).2 (ix2 p u)
      = 0 + ∑ q ∈ Finset.range 1024, ent m c t.val p (1024 * (t.val % 10) + q) := by
  rw [outsAt0_A m c t h0 h1]
  dsimp only
  rw [Pieces.scratch_first, col_step m c t, zerocol_apply]

/-- At a middle point it ends at the point's tile sums added to what the point before left. -/
theorem scratch_at_mid (c : Dev nD) (t : Fin cfg0.N) (h0 : ¬t.val % 10 = 0) (h1 : ¬t.val % 10 = 9) (p : Fin 1024) (u : Fin 1) :
    (outsAt0 m c t.val t.isLt).2 (ix2 p u)
      = (outsAt0 m c (t.val - 1) (Nat.lt_of_le_of_lt (Nat.sub_le _ _) t.isLt)).2 (ix2 p u)
        + ∑ q ∈ Finset.range 1024, ent m c t.val p (1024 * (t.val % 10) + q) := by
  rw [outsAt0_B m c t h0 h1]
  dsimp only
  rw [Pieces.scratch_mid, col_step m c t]

/-- At the last point of a block of rows likewise, -/
theorem scratch_at_last (c : Dev nD) (t : Fin cfg0.N) (h0 : ¬t.val % 10 = 0) (h1 : t.val % 10 = 9) (p : Fin 1024) (u : Fin 1) :
    (outsAt0 m c t.val t.isLt).2 (ix2 p u)
      = (outsAt0 m c (t.val - 1) (Nat.lt_of_le_of_lt (Nat.sub_le _ _) t.isLt)).2 (ix2 p u)
        + ∑ q ∈ Finset.range 1024, ent m c t.val p (1024 * (t.val % 10) + q) := by
  rw [outsAt0_C m c t h0 h1]
  dsimp only
  rw [Pieces.scratch_last, col_step m c t]

/-- and the output block ends at the same column. -/
theorem out_at_last (c : Dev nD) (t : Fin cfg0.N) (h0 : ¬t.val % 10 = 0) (h1 : t.val % 10 = 9) (p : Fin 1024) (u : Fin 1) :
    (outsAt0 m c t.val t.isLt).1 (ix2 p u)
      = (outsAt0 m c (t.val - 1) (Nat.lt_of_le_of_lt (Nat.sub_le _ _) t.isLt)).2 (ix2 p u)
        + ∑ q ∈ Finset.range 1024, ent m c t.val p (1024 * (t.val % 10) + q) := by
  rw [outsAt0_C m c t h0 h1]
  dsimp only
  rw [Pieces.out_last, col_step m c t]

/-- The row's entries over the class numbers of the tiles visited up to and including point `n`'s. -/
def partialSum (c : Dev nD) (n : ℕ) (p : Fin 1024) : EReal :=
  ∑ j ∈ Finset.range (1024 * (n % 10 + 1)), ent m c n p j

/-- The first tile's sums from zero are the first partial sum. -/
theorem first_step (c : Dev nD) (n : ℕ) (p : Fin 1024) (h0 : n % 10 = 0) :
    (0 : EReal) + ∑ q ∈ Finset.range 1024, ent m c n p (1024 * (n % 10) + q) = partialSum m c n p := by
  unfold partialSum
  rw [h0, zero_add]
  simp only [Nat.mul_zero, Nat.zero_add, Nat.mul_one]

/-- Within a block of rows, a partial sum plus the next tile's sums is the next partial sum: the class numbers of
    tile `jt + 1` continue those below `1024 · (jt + 1)`. -/
theorem next_step (c : Dev nD) (n : ℕ) (p : Fin 1024) (h0 : ¬(n + 1) % 10 = 0) :
    partialSum m c n p + ∑ q ∈ Finset.range 1024, ent m c (n + 1) p (1024 * ((n + 1) % 10) + q)
      = partialSum m c (n + 1) p := by
  have hr : rowOf (n + 1) p = rowOf n p :=
    Fin.ext (by show 1024 * ((n + 1) / 10 % 4) + p.val = 1024 * (n / 10 % 4) + p.val; omega)
  have e1 : 1024 * ((n + 1) % 10 + 1) = 1024 * (n % 10 + 1) + 1024 := by omega
  have e2 : 1024 * ((n + 1) % 10) = 1024 * (n % 10 + 1) := by omega
  have he : ∀ j, ent m c (n + 1) p j = ent m c n p j := fun j => by
    show entry _ (LL m c (ix1 (rowOf (n + 1) p))) _ (rowOf (n + 1) p) j = entry _ (LL m c (ix1 (rowOf n p))) _ (rowOf n p) j
    rw [hr]
  unfold partialSum
  rw [e1, Finset.sum_range_add]
  simp only [he, e2]

/-- After point `n` the scratch column holds the partial sums: by induction on the point. -/
theorem scratch_eq (c : Dev nD) : ∀ (n : ℕ) (h : n < cfg0.N) (p : Fin 1024) (u : Fin 1),
    (outsAt0 m c n h).2 (ix2 p u) = partialSum m c n p
  | 0, h, p, u => (scratch_at_first m c ⟨0, h⟩ rfl (by dsimp only; omega) p u).trans (first_step m c 0 p rfl)
  | n + 1, h, p, u => by
    by_cases h0 : (n + 1) % 10 = 0
    · exact (scratch_at_first m c ⟨n + 1, h⟩ h0 (by dsimp only; omega) p u).trans (first_step m c (n + 1) p h0)
    · have ih := scratch_eq c n (Nat.lt_of_succ_lt h) p u
      by_cases h1 : (n + 1) % 10 = 9
      · refine (scratch_at_last m c ⟨n + 1, h⟩ h0 h1 p u).trans ?_
        show (outsAt0 m c n _).2 (ix2 p u) + _ = _
        rw [ih]
        exact next_step m c n p h0
      · refine (scratch_at_mid m c ⟨n + 1, h⟩ h0 h1 p u).trans ?_
        show (outsAt0 m c n _).2 (ix2 p u) + _ = _
        rw [ih]
        exact next_step m c n p h0

/-- At the last point of a block of rows the output block holds the rows' totals. -/
theorem out_eq (c : Dev nD) (t : Fin cfg0.N) (h9 : t.val % 10 = 9) (p : Fin 1024) (u : Fin 1) :
    (outsAt0 m c t.val t.isLt).1 (ix2 p u) = rowTotal (XX m c) (LL m c) (CC m c) (rowOf t.val p) := by
  have h0 : ¬t.val % 10 = 0 := by omega
  rw [out_at_last m c t h0 h9 p u, ← scratch_at_last m c t h0 h9 p u, scratch_eq m c t.val t.isLt p u]
  unfold partialSum rowTotal
  rw [h9]
  exact sum_entry_range (XX m c) (LL m c (ix1 (rowOf t.val p))) (CC m c) (rowOf t.val p) 240

end Cert.KernelIdeal.Value

end
-- ==== Proof.Final.lean ====
/-
  The kernel program's result: the loss.

  The region's output array is the column of the 4096 rows' totals: the block written back after the last class tile of
  row block `i` is rows `1024 · i …` of that column, and the four written blocks cover the column. The host operations
  after the region sum the column from the zero word and divide by the batch size: the specification's loss.
-/
import proofs.«146930_j52166672778208_1_alg».proof.Proof.Accumulate
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.CenterLoss Cert.KernelIdeal.Blocks

variable (m : (ℓ : Loc nD τ sig) → Buf (Elt Ideal) ℓ) (ρ : Dev nD → PrngReg)

/-- The column of the rows' totals, as contents of the region's output array. -/
def rows (c : Dev nD) : (⟨2, ![4096, 1]⟩ : Shape).Idx → EReal :=
  fun (y : (⟨2, ![4096, 1]⟩ : Shape).Idx) => rowTotal (XX m c) (LL m c) (CC m c) ⟨(y 0).val, idx2_lt0 y⟩

/-- What a point that ends a block of rows writes back is its block of the column of totals. -/
theorem flushed_eq (c : Dev nD) (t : Fin cfg0.N) (hf : (cfg0.win 3).flush t = true) :
    (dats m 0 c).flushed 3 t = ((cfg0.win 3).blk t).view.read (Elt Ideal) (rows m c) := by
  have h9 : t.val % 10 = 9 := (flush0_3 t).mp hf
  obtain ⟨-, -, -, -, -, -, -, e0, e1⟩ := grid_facts t
  have hN : t.val < 40 := lt_of_lt_of_eq t.isLt (show cfg0.N = 40 from N_0)
  show (cfg0.win 3).cut (grid0.coords t) ((dats m 0 c).after 3 t) = _
  rw [after0_3]
  funext j
  obtain ⟨p, u, rfl⟩ : ∃ (p : Fin 1024) (u : Fin 1), j = ix2 p u := ⟨j 0, j 1, eq_ix2 j⟩
  show (outsAt0 m c t.val t.isLt).1 (ix2 p u) = rows m c (((cfg0.win 3).blk t).view.emb (ix2 p u))
  rw [out_eq m c t h9 p u]
  unfold rows
  refine congrArg (rowTotal (XX m c) (LL m c) (CC m c)) (Fin.ext ?_)
  show 1024 * (t.val / 10 % 4) + p.val = win0_3.index t (0 : Fin 2) * 1024 + 1 * p.val
  rw [e0]; omega

/-- Every row of the column lies in the block written back after the last class tile of its row block. -/
theorem cover (c : Dev nD) (i : (⟨2, ![4096, 1]⟩ : Shape).Idx) :
    ∃ t : Fin cfg0.N, (cfg0.win 3).flush t = true ∧ i ∈ ((cfg0.win 3).blk t).view.set := by
  have hi0 : (i 0).val < 4096 := idx2_lt0 i
  have hi1 : (i 1).val < 1 := idx2_lt1 i
  have hN : cfg0.N = 40 := N_0
  obtain ⟨t, ht⟩ : ∃ t : Fin cfg0.N, t.val = 10 * ((i 0).val / 1024) + 9 := ⟨⟨10 * ((i 0).val / 1024) + 9, by rw [hN]; omega⟩, rfl⟩
  obtain ⟨-, -, -, -, -, -, -, e0, e1⟩ := grid_facts t
  refine ⟨t, (flush0_3 t).mpr (by rw [ht]; omega), ?_⟩
  show i ∈ ((View.whole main_v2).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 1 ≤ (i 1).val ∧ (i 1).val < win0_3.index t (1 : Fin 2) * 1 + 1
    rw [e1]; omega

/-- The region's output array ends as the column of the rows' totals. -/
theorem final (c : Dev nD) : (dats m 0 c).arrAt 3 cfg0.N = rows m c :=
  (dats m 0 c).arrAt_eq_of_cover 3 (rows m c) (flushed_eq m c) (cover c)

/-- The host operations after the region turn that column into the loss. -/
theorem tail_eq (c : Dev nD) :
    (Pipeline.afterTail₀ cfgs (dats m) 0 (V0 m) [hostOps1] c main_v4 : S_.Idx → EReal)
      = fun _ => loss (XX m c) (LL m c) (CC m c) := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.tc.devRef main_v2)
      = rows m c from (Pipeline.withArrays_arr spec0 launch0.win.arr_inj c _ _ 3).trans (final m c)]
  funext i
  show FloatOps.hostDivf (Host.reduceAdd (F := Ideal) (rows m c) (constant S_ .f32 0x00000000#32) reducesTo_S4096x1_S_d0_1 h_S_ i)
      (constant (F := Ideal) S_ .f32 0x45800000#32 i) = _
  rw [Ideal.hostDivf_def]
  have hsum : Host.reduceAdd (F := Ideal) (rows m c) (constant S_ .f32 0x00000000#32) reducesTo_S4096x1_S_d0_1 h_S_ i
      = Ideal.ofBits .f32 0x00000000#32 + ∑ y : (⟨2, ![4096, 1]⟩ : Shape).Idx, rows m c y := by
    simp only [Host.reduceAdd, Ideal.hostReduceAdd_def]
    exact Ideal.hostReduceAdd_total reducesTo_S4096x1_S_d0_1 (fun b => b.elim0) (rows m c) _ i
  rw [hsum, sum_idx2]
  unfold loss
  refine congrArg (fun s => Ideal.div (Ideal.ofBits .f32 0x00000000#32 + s) (Ideal.ofBits .f32 0x45800000#32)) ?_
  refine Finset.sum_congr rfl fun b _ => ?_
  rw [Fin.sum_univ_one]
  rfl

/-- The kernel program's run, read: the result is the loss of the launch contents, the arguments are unchanged. -/
theorem run : θ_run defs (onTc (τ := τ) (main (F := Ideal))) ⟨m, fun _ => 0, ρ⟩ fun r => ∀ c : Dev nD,
      r.2.mem ((c.tc : Thread nD τ).loc main_v4) = (fun _ => loss (XX m c) (LL m c) (CC m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (tail_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Value

end
-- ==== Proof.lean ====
/-
  The center loss: a tiled kernel against the whole-matrix reference, equal over the extended reals.

  For a batch of 4096 feature rows, their labels and 10000 centers, the reference forms the whole 4096 × 10000 matrix
  of squared distances `‖x‖² + ‖c‖² − 2 ⟨x, c⟩`, masks it by multiplying with the one-hot comparison of the row's label
  with the class number, clamps every entry into `[1e-12, 1e12]`, sums everything and divides by 4096. The kernel
  pads the centers to 10240 rows and walks a 4 × 10 grid of 1024 × 1024 tiles: per tile it forms the same distances
  (the inner products by a matrix product of operands narrowed to 16 bits, which changes nothing on the extended
  reals), keeps the distance where the label equals the class number and `0` elsewhere, clamps, zeroes the entries of
  the padded classes, and adds each row's sum to a running column; the column of a finished block of rows is written
  out, and the host sums the 4096 row totals and divides by 4096.

  Both are the same number (`Cert.CenterLoss.loss`): masking by a product with `1` or `0` is the choice between the
  distance and `0` for every extended real; a padded class adds `0`; and a sum of extended reals may be taken tile by
  tile and row by row, since addition there is commutative and associative. No finiteness of the inputs is used.
  The reference's side is in `Proof/RefSide.lean`, the kernel's in `Proof/Pieces.lean` (what a grid point leaves),
  `Proof/Tile.lean` and `Proof/Entry.lean` (a tile's entries), `Proof/Blocks.lean` (the loaded blocks as rows of the
  arrays), `Proof/Accumulate.lean` (the running column) and `Proof/Final.lean` (the output array and the host's sum).
  The ideal pass rewrote nothing, so `preserves` is trivial.
-/
import proofs.«146930_j52166672778208_1_alg».proof.Defs
import proofs.«146930_j52166672778208_1_alg».proof.Proof.Gen.Kernel
import proofs.«146930_j52166672778208_1_alg».proof.Proof.Gen.Kernel.Skeleton
import proofs.«146930_j52166672778208_1_alg».proof.Proof.Gen.Kernel.Launch
import proofs.«146930_j52166672778208_1_alg».proof.Proof.Gen.Kernel.Points
import proofs.«146930_j52166672778208_1_alg».proof.Proof.Gen.Kernel.Frame
import proofs.«146930_j52166672778208_1_alg».proof.Proof.Gen.KernelIdeal
import proofs.«146930_j52166672778208_1_alg».proof.Proof.Gen.KernelIdeal.Skeleton
import proofs.«146930_j52166672778208_1_alg».proof.Proof.Gen.KernelIdeal.Launch
import proofs.«146930_j52166672778208_1_alg».proof.Proof.Gen.KernelIdeal.Points
import proofs.«146930_j52166672778208_1_alg».proof.Proof.Gen.KernelIdeal.Frame
import proofs.«146930_j52166672778208_1_alg».proof.Proof.Gen.ReferenceIdeal
import proofs.«146930_j52166672778208_1_alg».proof.Proof.Gen.Pre_finite_inputs
import proofs.«146930_j52166672778208_1_alg».proof.Proof.Gen.ReferenceIdeal.Run
import proofs.«146930_j52166672778208_1_alg».proof.Proof.Gen.ReferenceIdeal.Read
import proofs.«146930_j52166672778208_1_alg».proof.Proof.RefSide
import proofs.«146930_j52166672778208_1_alg».proof.Proof.Final
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the loss of those arguments. -/
theorem algebraic : Cert.algebraic_KernelIdeal_ReferenceIdeal := by
  intro m ρ m' ρ' _ hagree
  refine ⟨fun c => (fun _ => Cert.CenterLoss.loss (Cert.KernelIdeal.Value.XX m c) (Cert.KernelIdeal.Value.LL m c)
    (Cert.KernelIdeal.Value.CC m c)), Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.CenterLoss.Ref.result_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
